-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x32x128 : Shape := ⟨3, ![16384, 32, 128]⟩
abbrev S16384x64 : Shape := ⟨2, ![16384, 64]⟩
abbrev S16384x32x64 : Shape := ⟨3, ![16384, 32, 64]⟩
abbrev S128x512 : Shape := ⟨2, ![128, 512]⟩
abbrev S512 : Shape := ⟨1, ![512]⟩
abbrev S64x512 : Shape := ⟨2, ![64, 512]⟩
abbrev S512x256 : Shape := ⟨2, ![512, 256]⟩
abbrev S128x256 : Shape := ⟨2, ![128, 256]⟩
abbrev S64x256 : Shape := ⟨2, ![64, 256]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x32x128 : S_.BroadcastsInDim S16384x32x128 (![] : Fin 0 → Fin S16384x32x128.rank)
  reducesTo_S16384x32x128_S_d0_1_2 : S16384x32x128.ReducesTo [0, 1, 2] S_
  bcast_S_S16384x64 : S_.BroadcastsInDim S16384x64 (![] : Fin 0 → Fin S16384x64.rank)
  reducesTo_S16384x64_S_d0_1 : S16384x64.ReducesTo [0, 1] S_
  bcast_S_S16384x32x64 : S_.BroadcastsInDim S16384x32x64 (![] : Fin 0 → Fin S16384x32x64.rank)
  reducesTo_S16384x32x64_S_d0_1_2 : S16384x32x64.ReducesTo [0, 1, 2] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_
  bcast_S_S512x256 : S_.BroadcastsInDim S512x256 (![] : Fin 0 → Fin S512x256.rank)
  reducesTo_S512x256_S_d0_1 : S512x256.ReducesTo [0, 1] S_
  bcast_S_S128x256 : S_.BroadcastsInDim S128x256 (![] : Fin 0 → Fin S128x256.rank)
  reducesTo_S128x256_S_d0_1 : S128x256.ReducesTo [0, 1] S_
  bcast_S_S64x256 : S_.BroadcastsInDim S64x256 (![] : Fin 0 → Fin S64x256.rank)
  reducesTo_S64x256_S_d0_1 : S64x256.ReducesTo [0, 1] S_

variable [Facts]

def fn_part3 {F : FTy → Type} [FloatOps F] (main_arg11 : FVec F S512x256 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S512x256 .f32 := Host.absf main_arg11
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  main_v58

def fn_part2 {F : FTy → Type} [FloatOps F] (main_arg7 : FVec F S512 .f32) (main_arg8 : FVec F S512x256 .f32) (main_arg9 : FVec F S128x256 .f32) (main_arg10 : FVec F S64x256 .f32) (main_arg11 : FVec F S512x256 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg8
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S64x256 .f32 := Host.absf main_arg10
  let main_cst_18 : FVec F S_ .f32 := constant S_ .f32 0x7F800000#32
  let main_v50 : FVec F S64x256 .f32 := broadcastInDim S64x256 ![] bcast_S_S64x256 main_cst_18
  fn_part3 (F := F) main_arg11 main_v48 main_v49 main_v50

def fn_part1 {F : FTy → Type} [FloatOps F] (main_arg4 : FVec F S128x512 .f32) (main_arg5 : FVec F S512 .f32) (main_arg6 : FVec F S64x512 .f32) (main_arg7 : FVec F S512 .f32) (main_arg8 : FVec F S512x256 .f32) (main_arg9 : FVec F S128x256 .f32) (main_arg10 : FVec F S64x256 .f32) (main_arg11 : FVec F S512x256 .f32) (main_v13 : IVec S_ 1) (main_v16 : IVec S16384x32x64 1) : IVec S_ 1 :=
  let main_c_5 : IVec S_ 1 := constantI S_ 1 1#1
  let main_v17 : IVec S_ 1 := (fun x v => Host.reduce IntOp.andi x v reducesTo_S16384x32x64_S_d0_1_2 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S64x512 .f32 := Host.absf main_arg6
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x128 .f32) (main_arg1 : FVec F S16384x32x128 .f32) (main_arg2 : FVec F S16384x64 .f32) (main_arg3 : FVec F S16384x32x64 .f32) (main_arg4 : FVec F S128x512 .f32) (main_arg5 : FVec F S512 .f32) (main_arg6 : FVec F S64x512 .f32) (main_arg7 : FVec F S512 .f32) (main_arg8 : FVec F S512x256 .f32) (main_arg9 : FVec F S128x256 .f32) (main_arg10 : FVec F S64x256 .f32) (main_arg11 : FVec F S512x256 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x32x128 .f32 := Host.absf main_arg1
  let main_cst_0 : FVec F S_ .f32 := constant S_ .f32 0x7F800000#32
  let main_v5 : FVec F S16384x32x128 .f32 := broadcastInDim S16384x32x128 ![] bcast_S_S16384x32x128 main_cst_0
  let main_v6 : IVec S16384x32x128 1 := cmpf .olt main_v4 main_v5
  let main_c_1 : IVec S_ 1 := constantI S_ 1 1#1
  let main_v7 : IVec S_ 1 := (fun x v => Host.reduce IntOp.andi x v reducesTo_S16384x32x128_S_d0_1_2 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S16384x32x64 .f32 := Host.absf main_arg3
  let main_cst_4 : FVec F S_ .f32 := constant S_ .f32 0x7F800000#32
  let main_v15 : FVec F S16384x32x64 .f32 := broadcastInDim S16384x32x64 ![] bcast_S_S16384x32x64 main_cst_4
  let main_v16 : IVec S16384x32x64 1 := cmpf .olt main_v14 main_v15
  fn_part1 (F := F) main_arg4 main_arg5 main_arg6 main_arg7 main_arg8 main_arg9 main_arg10 main_arg11 main_v13 main_v16
-- ==== Kernel.lean ====
abbrev S16384x128 : Shape := ⟨2, ![16384, 128]⟩
abbrev S16384x32x128 : Shape := ⟨3, ![16384, 32, 128]⟩
abbrev S16384x64 : Shape := ⟨2, ![16384, 64]⟩
abbrev S16384x32x64 : Shape := ⟨3, ![16384, 32, 64]⟩
abbrev S128x512 : Shape := ⟨2, ![128, 512]⟩
abbrev S512 : Shape := ⟨1, ![512]⟩
abbrev S64x512 : Shape := ⟨2, ![64, 512]⟩
abbrev S512x256 : Shape := ⟨2, ![512, 256]⟩
abbrev S128x256 : Shape := ⟨2, ![128, 256]⟩
abbrev S64x256 : Shape := ⟨2, ![64, 256]⟩
abbrev S1x512 : Shape := ⟨2, ![1, 512]⟩
abbrev S16384x256 : Shape := ⟨2, ![16384, 256]⟩
abbrev S128x128 : Shape := ⟨2, ![128, 128]⟩
abbrev S128x32x128 : Shape := ⟨3, ![128, 32, 128]⟩
abbrev S128x64 : Shape := ⟨2, ![128, 64]⟩
abbrev S128x32x64 : Shape := ⟨3, ![128, 32, 64]⟩
abbrev S4096x128 : Shape := ⟨2, ![4096, 128]⟩
abbrev S4096x512 : Shape := ⟨2, ![4096, 512]⟩
abbrev S128x32x512 : Shape := ⟨3, ![128, 32, 512]⟩
abbrev S4096x64 : Shape := ⟨2, ![4096, 64]⟩

abbrev nBuf : Space → Nat
  | .hbm => 16
  | .vmem => 20
  | .smem => 0
  | _ => 0

abbrev bufTy : (tb : Table) → Fin (tcTables nBuf tb) → BufTy
  | .hbm, ⟨0, _⟩ => ⟨S16384x128, .f32⟩
  | .hbm, ⟨1, _⟩ => ⟨S16384x32x128, .f32⟩
  | .hbm, ⟨2, _⟩ => ⟨S16384x64, .f32⟩
  | .hbm, ⟨3, _⟩ => ⟨S16384x32x64, .f32⟩
  | .hbm, ⟨4, _⟩ => ⟨S128x512, .f32⟩
  | .hbm, ⟨5, _⟩ => ⟨S512, .f32⟩
  | .hbm, ⟨6, _⟩ => ⟨S64x512, .f32⟩
  | .hbm, ⟨7, _⟩ => ⟨S512, .f32⟩
  | .hbm, ⟨8, _⟩ => ⟨S512x256, .f32⟩
  | .hbm, ⟨9, _⟩ => ⟨S128x256, .f32⟩
  | .hbm, ⟨10, _⟩ => ⟨S64x256, .f32⟩
  | .hbm, ⟨11, _⟩ => ⟨S512x256, .f32⟩
  | .hbm, ⟨12, _⟩ => ⟨S1x512, .f32⟩
  | .hbm, ⟨13, _⟩ => ⟨S1x512, .f32⟩
  | .hbm, ⟨14, _⟩ => ⟨S16384x256, .f32⟩
  | .hbm, ⟨15, _⟩ => ⟨S16384x256, .f32⟩
  | .local _ .vmem, ⟨0, _⟩ => ⟨S128x128, .f32⟩
  | .local _ .vmem, ⟨1, _⟩ => ⟨S128x128, .f32⟩
  | .local _ .vmem, ⟨2, _⟩ => ⟨S128x32x128, .f32⟩
  | .local _ .vmem, ⟨3, _⟩ => ⟨S128x32x128, .f32⟩
  | .local _ .vmem, ⟨4, _⟩ => ⟨S128x64, .f32⟩
  | .local _ .vmem, ⟨5, _⟩ => ⟨S128x64, .f32⟩
  | .local _ .vmem, ⟨6, _⟩ => ⟨S128x32x64, .f32⟩
  | .local _ .vmem, ⟨7, _⟩ => ⟨S128x32x64, .f32⟩
  | .local _ .vmem, ⟨8, _⟩ => ⟨S128x512, .f32⟩
  | .local _ .vmem, ⟨9, _⟩ => ⟨S1x512, .f32⟩
  | .local _ .vmem, ⟨10, _⟩ => ⟨S64x512, .f32⟩
  | .local _ .vmem, ⟨11, _⟩ => ⟨S1x512, .f32⟩
  | .local _ .vmem, ⟨12, _⟩ => ⟨S512x256, .f32⟩
  | .local _ .vmem, ⟨13, _⟩ => ⟨S128x256, .f32⟩
  | .local _ .vmem, ⟨14, _⟩ => ⟨S64x256, .f32⟩
  | .local _ .vmem, ⟨15, _⟩ => ⟨S512x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S512_S1x512 : S512.ShapeCasts S1x512
  inb_S128x32x128_S128x32x128_0_0_0 : ∀ a, (![0, 0, 0] : Fin 3 → Nat) a + S128x32x128.size a ≤ S128x32x128.size a
  h_S128x32x128 : 0 < S128x32x128.numel
  shapeCasts_S128x32x128_S4096x128 : S128x32x128.ShapeCasts S4096x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  shapeCasts_S4096x512_S128x32x512 : S4096x512.ShapeCasts S128x32x512
  reduces_S128x32x512_S128x512 : S128x32x512.Reduces [1] S128x512
  inb_S512x256_S512x256_0_0 : ∀ a, (![0, 0] : Fin 2 → Nat) a + S512x256.size a ≤ S512x256.size a
  h_S512x256 : 0 < S512x256.numel
  inb_S128x32x64_S128x32x64_0_0_0 : ∀ a, (![0, 0, 0] : Fin 3 → Nat) a + S128x32x64.size a ≤ S128x32x64.size a
  h_S128x32x64 : 0 < S128x32x64.numel
  shapeCasts_S128x32x64_S4096x64 : S128x32x64.ShapeCasts S4096x64
  inb_S64x512_S64x512_0_0 : ∀ a, (![0, 0] : Fin 2 → Nat) a + S64x512.size a ≤ S64x512.size a
  h_S64x512 : 0 < S64x512.numel
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  inb_S128x64_S128x64_0_0 : ∀ a, (![0, 0] : Fin 2 → Nat) a + S128x64.size a ≤ S128x64.size a
  h_S128x64 : 0 < S128x64.numel
  inb_S64x256_S64x256_0_0 : ∀ a, (![0, 0] : Fin 2 → Nat) a + S64x256.size a ≤ S64x256.size a
  h_S64x256 : 0 < S64x256.numel
  dot_S4096x128_S128x512_S4096x512_1_0_0_1_n_n_wf : DotDims.WF S4096x128 S128x512 S4096x512 [1] [0] [0] [1] [] []
  dot_S128x512_S512x256_S128x256_1_0_0_1_n_n_wf : DotDims.WF S128x512 S512x256 S128x256 [1] [0] [0] [1] [] []
  dot_S4096x64_S64x512_S4096x512_1_0_0_1_n_n_wf : DotDims.WF S4096x64 S64x512 S4096x512 [1] [0] [0] [1] [] []
  dot_S128x128_S128x256_S128x256_1_0_0_1_n_n_wf : DotDims.WF S128x128 S128x256 S128x256 [1] [0] [0] [1] [] []
  dot_S128x64_S64x256_S128x256_1_0_0_1_n_n_wf : DotDims.WF S128x64 S64x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S16384x128.size a
  hwx0_0 : ∀ i : grid0.Coords, EltTy.bits .f32 = 32 ∨ (Rect.block (s := S16384x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x128.size a ≤ S16384x32x128.size a
  hwx0_1 : ∀ i : grid0.Coords, EltTy.bits .f32 = 32 ∨ (Rect.block (s := S16384x32x128) S128x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S16384x64.size a
  hwx0_2 : ∀ i : grid0.Coords, EltTy.bits .f32 = 32 ∨ (Rect.block (s := S16384x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32x64.size a ≤ S16384x32x64.size a
  hwx0_3 : ∀ i : grid0.Coords, EltTy.bits .f32 = 32 ∨ (Rect.block (s := S16384x32x64) S128x32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x512.size a
  hwx0_6 : ∀ i : grid0.Coords, EltTy.bits .f32 = 32 ∨ (Rect.block (s := S64x512) S64x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .f32 = 32 ∨ (Rect.block (s := S128x256) S128x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x256.size a ≤ S64x256.size a
  hwx0_10 : ∀ i : grid0.Coords, EltTy.bits .f32 = 32 ∨ (Rect.block (s := S64x256) S64x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S512x256.size a
  hwx0_11 : ∀ i : grid0.Coords, EltTy.bits .f32 = 32 ∨ (Rect.block (s := S512x256) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x256.size a ≤ S16384x256.size a
  hwx0_12 : ∀ i : grid0.Coords, EltTy.bits .f32 = 32 ∨ (Rect.block (s := S16384x256) S128x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x256.size a ≤ S16384x256.size a
  hwx0_13 : ∀ i : grid0.Coords, EltTy.bits .f32 = 32 ∨ (Rect.block (s := S16384x256) S128x256.size (cc0_transform_13 i) (hinb0_13 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x64_S64x256_S128x256_1_0_0_1_n_n : DotDims S128x64 S64x256 S128x256 where
  lhsContracting := [1]
  rhsContracting := [0]
  lhsNonContracting := [0]
  rhsNonContracting := [1]
  lhsBatch := []
  rhsBatch := []
  wf := dot_S128x64_S64x256_S128x256_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x32x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2_0) S128x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2_1) S128x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x32x128 : Shape := ⟨3, ![16384, 32, 128]⟩
abbrev S16384x64 : Shape := ⟨2, ![16384, 64]⟩
abbrev S16384x32x64 : Shape := ⟨3, ![16384, 32, 64]⟩
abbrev S128x512 : Shape := ⟨2, ![128, 512]⟩
abbrev S512 : Shape := ⟨1, ![512]⟩
abbrev S64x512 : Shape := ⟨2, ![64, 512]⟩
abbrev S512x256 : Shape := ⟨2, ![512, 256]⟩
abbrev S128x256 : Shape := ⟨2, ![128, 256]⟩
abbrev S64x256 : Shape := ⟨2, ![64, 256]⟩
abbrev S16384x32x512 : Shape := ⟨3, ![16384, 32, 512]⟩
abbrev S1x1x512 : Shape := ⟨3, ![1, 1, 512]⟩
abbrev S_ : Shape := ⟨0, ![]⟩
abbrev S16384x512 : Shape := ⟨2, ![16384, 512]⟩
abbrev S16384x256 : Shape := ⟨2, ![16384, 256]⟩

abbrev nBuf : Space → Nat
  | .hbm => 48
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x32x128, .f32⟩
  | .hbm, ⟨2, _⟩ => ⟨S16384x64, .f32⟩
  | .hbm, ⟨3, _⟩ => ⟨S16384x32x64, .f32⟩
  | .hbm, ⟨4, _⟩ => ⟨S128x512, .f32⟩
  | .hbm, ⟨5, _⟩ => ⟨S512, .f32⟩
  | .hbm, ⟨6, _⟩ => ⟨S64x512, .f32⟩
  | .hbm, ⟨7, _⟩ => ⟨S512, .f32⟩
  | .hbm, ⟨8, _⟩ => ⟨S512x256, .f32⟩
  | .hbm, ⟨9, _⟩ => ⟨S128x256, .f32⟩
  | .hbm, ⟨10, _⟩ => ⟨S64x256, .f32⟩
  | .hbm, ⟨11, _⟩ => ⟨S512x256, .f32⟩
  | .hbm, ⟨12, _⟩ => ⟨S16384x32x512, .f32⟩
  | .hbm, ⟨13, _⟩ => ⟨S1x1x512, .f32⟩
  | .hbm, ⟨14, _⟩ => ⟨S16384x32x512, .f32⟩
  | .hbm, ⟨15, _⟩ => ⟨S16384x32x512, .f32⟩
  | .hbm, ⟨16, _⟩ => ⟨S_, .f32⟩
  | .hbm, ⟨17, _⟩ => ⟨S16384x32x512, .f32⟩
  | .hbm, ⟨18, _⟩ => ⟨S16384x32x512, .f32⟩
  | .hbm, ⟨19, _⟩ => ⟨S_, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S16384x256, .f32⟩
  | .hbm, ⟨25, _⟩ => ⟨S16384x32x512, .f32⟩
  | .hbm, ⟨26, _⟩ => ⟨S1x1x512, .f32⟩
  | .hbm, ⟨27, _⟩ => ⟨S16384x32x512, .f32⟩
  | .hbm, ⟨28, _⟩ => ⟨S16384x32x512, .f32⟩
  | .hbm, ⟨29, _⟩ => ⟨S_, .f32⟩
  | .hbm, ⟨30, _⟩ => ⟨S16384x32x512, .f32⟩
  | .hbm, ⟨31, _⟩ => ⟨S16384x32x512, .f32⟩
  | .hbm, ⟨32, _⟩ => ⟨S_, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S_, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S_, .f32⟩
  | .hbm, ⟨46, _⟩ => ⟨S16384x256, .f32⟩
  | .hbm, ⟨47, _⟩ => ⟨S16384x256, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_cst : Ref sig .tc := ⟨.hbm, 29, rfl⟩
abbrev main_call1_v0 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_call3_cst : Ref sig .tc := ⟨.hbm, 45, rfl⟩
abbrev main_call3_v0 : Ref sig .tc := ⟨.hbm, 46, rfl⟩
abbrev main_v23 : Ref sig .tc := ⟨.hbm, 47, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16384x32x512_0_1_2 : S1x1x512.BroadcastsInDim S16384x32x512 (![0, 1, 2] : Fin 3 → Fin S16384x32x512.rank)
  bcast_S_S16384x32x512 : S_.BroadcastsInDim S16384x32x512 (![] : Fin 0 → Fin S16384x32x512.rank)
  reducesTo_S16384x32x512_S16384x512_d1 : S16384x32x512.ReducesTo [1] S16384x512
  h_S_ : 0 < S_.numel
  bcast_S_S16384x512 : S_.BroadcastsInDim S16384x512 (![] : Fin 0 → Fin S16384x512.rank)
  bcast_S_S16384x256 : S_.BroadcastsInDim S16384x256 (![] : Fin 0 → Fin S16384x256.rank)
  dot_S16384x32x64_S64x512_S16384x32x512_2_0_01_1_n_n_wf : DotDims.WF S16384x32x64 S64x512 S16384x32x512 [2] [0] [0, 1] [1] [] []
  dot_S16384x512_S512x256_S16384x256_1_0_0_1_n_n_wf : DotDims.WF S16384x512 S512x256 S16384x256 [1] [0] [0] [1] [] []
  dot_S16384x32x128_S128x512_S16384x32x512_2_0_01_1_n_n_wf : DotDims.WF S16384x32x128 S128x512 S16384x32x512 [2] [0] [0, 1] [1] [] []
  dot_S16384x64_S64x256_S16384x256_1_0_0_1_n_n_wf : DotDims.WF S16384x64 S64x256 S16384x256 [1] [0] [0] [1] [] []
  dot_S16384x128_S128x256_S16384x256_1_0_0_1_n_n_wf : DotDims.WF S16384x128 S128x256 S16384x256 [1] [0] [0] [1] [] []

variable [Facts₀]

def dot_S16384x32x64_S64x512_S16384x32x512_2_0_01_1_n_n : DotDims S16384x32x64 S64x512 S16384x32x512 where
  lhsContracting := [2]
  rhsContracting := [0]
  lhsNonContracting := [0, 1]
  rhsNonContracting := [1]
  lhsBatch := []
  rhsBatch := []
  wf := dot_S16384x32x64_S64x512_S16384x32x512_2_0_01_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x32x128_S128x512_S16384x32x512_2_0_01_1_n_n : DotDims S16384x32x128 S128x512 S16384x32x512 where
  lhsContracting := [2]
  rhsContracting := [0]
  lhsNonContracting := [0, 1]
  rhsNonContracting := [1]
  lhsBatch := []
  rhsBatch := []
  wf := dot_S16384x32x128_S128x512_S16384x32x512_2_0_01_1_n_n_wf
def dot_S16384x64_S64x256_S16384x256_1_0_0_1_n_n : DotDims S16384x64 S64x256 S16384x256 where
  lhsContracting := [1]
  rhsContracting := [0]
  lhsNonContracting := [0]
  rhsNonContracting := [1]
  lhsBatch := []
  rhsBatch := []
  wf := dot_S16384x64_S64x256_S16384x256_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf

class Facts : Prop extends Facts₀ where

variable [Facts]
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibPairLayout.lean ====
/-
  Arrays indexed by a pair of rows, read at an entry.

  A pairwise computation holds, for a block of `a` rows against `b` rows, one vector of `c` numbers per
  pair: an array of shape [a, b, c]. Such an array is built from a per-row matrix [a, c] (constant along
  the second axis), from a per-row matrix [b, c] (constant along the first), or from one vector [c]
  (constant along both); it is flattened to [a·b, c], pair (p, q) going to row p·b + q, for a matrix
  product over all pairs at once, and cut back. Each of these is read here at an entry. Generic in the sizes.
-/
import Idealize.ShloMosaic.Lib.ValueIdx
import Idealize.ShloMosaic.Lib.ValueLayout
import Idealize.ShloMosaic.Lib.Pipeline.Value

noncomputable section

namespace Cert.PairLayout

open Idealize.ShloMosaic Idealize.ShloMosaic.ValueIdx

variable {α : Type} {a b c n : ℕ}

/-- Pair (p, q) is row p·b + q of the flattened array. -/
theorem flat_lt (hn : n = a * b) (p : Fin a) (q : Fin b) : p.val * b + q.val < n := by
  have hp := p.isLt
  have hq := q.isLt
  calc p.val * b + q.val < p.val * b + b := by omega
    _ = (p.val + 1) * b := by rw [Nat.add_mul, Nat.one_mul]
    _ ≤ a * b := Nat.mul_le_mul_right b hp
    _ = n := hn.symm

/-- The row of the flattened array that holds pair (p, q). -/
abbrev flatRow (hn : n = a * b) (p : Fin a) (q : Fin b) : Fin n := ⟨p.val * b + q.val, flat_lt hn p q⟩

/-- A matrix [a, c] spread along a new second axis reads, at (p, q, o), its entry (p, o). -/
theorem spread_first (P : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (q : Fin b) (o : Fin c) :
    broadcastTo ⟨3, ![a, b, c]⟩ (shapeCast ⟨3, ![a, 1, c]⟩ P h1) h2 (ix3 p q o) = P (ix2 p o) := by
  refine (broadcastTo_apply _ h2 (ix3 p q o) (ix3 p (0 : Fin 1) o) fun ax => ?_).trans ?_
  · match ax with
    | ⟨0, _⟩ =>
      show p.val = if a = 1 then 0 else p.val
      split
      · have := p.isLt; omega
      · rfl
    | ⟨1, _⟩ => rfl
    | ⟨2, _⟩ =>
      show o.val = if c = 1 then 0 else o.val
      split
      · have := o.isLt; omega
      · rfl
  · exact shapeCast_apply P h1 _ _ (by
      rw [Shape.rowMajor_val_two, Shape.rowMajor_val_three]
      show p.val * c + o.val = (p.val * 1 + 0) * c + o.val
      rw [Nat.mul_one, Nat.add_zero])

/-- A matrix [b, c] spread along a new first axis reads, at (p, q, o), its entry (q, o). -/
theorem spread_second (Q : (⟨2, ![b, c]⟩ : Shape).Idx → α)
    (h1 : (⟨2, ![b, c]⟩ : Shape).ShapeCasts ⟨3, ![1, b, c]⟩) (h2 : (⟨3, ![1, b, c]⟩ : Shape).Broadcasts ⟨3, ![a, b, c]⟩)
    (p : Fin a) (q : Fin b) (o : Fin c) :
    broadcastTo ⟨3, ![a, b, c]⟩ (shapeCast ⟨3, ![1, b, c]⟩ Q h1) h2 (ix3 p q o) = Q (ix2 q o) := by
  refine (broadcastTo_apply _ h2 (ix3 p q o) (ix3 (0 : Fin 1) q o) fun ax => ?_).trans ?_
  · match ax with
    | ⟨0, _⟩ => rfl
    | ⟨1, _⟩ =>
      show q.val = if b = 1 then 0 else q.val
      split
      · have := q.isLt; omega
      · rfl
    | ⟨2, _⟩ =>
      show o.val = if c = 1 then 0 else o.val
      split
      · have := o.isLt; omega
      · rfl
  · exact shapeCast_ab_1ab_apply Q h1 0 q o

/-- A vector [c] spread over both pair axes reads, at (p, q, o), its entry o. -/
theorem spread_both (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (o : Fin c) :
    broadcastTo ⟨3, ![a, b, c]⟩ (shapeCast ⟨3, ![1, 1, c]⟩ v h1) h2 (ix3 p q o) = v (ix1 o) := by
  refine (broadcastTo_apply _ h2 (ix3 p q o) (ix3 (0 : Fin 1) (0 : Fin 1) o) fun ax => ?_).trans ?_
  · match ax with
    | ⟨0, _⟩ => rfl
    | ⟨1, _⟩ => rfl
    | ⟨2, _⟩ =>
      show o.val = if c = 1 then 0 else o.val
      split
      · have := o.isLt; omega
      · rfl
  · exact shapeCast_apply v h1 _ _ (by
      rw [Shape.rowMajor_val_one, Shape.rowMajor_val_three]
      show o.val = (0 * 1 + 0) * c + o.val
      omega)

/-- A vector [c] spread over the rows of a matrix [n, c] reads, at (r, o), its entry o. -/
theorem spread_rows (v : (⟨1, ![c]⟩ : Shape).Idx → α)
    (h1 : (⟨1, ![c]⟩ : Shape).ShapeCasts ⟨2, ![1, c]⟩) (h2 : (⟨2, ![1, c]⟩ : Shape).Broadcasts ⟨2, ![n, c]⟩)
    (r : Fin n) (o : Fin c) :
    broadcastTo ⟨2, ![n, c]⟩ (shapeCast ⟨2, ![1, c]⟩ v h1) h2 (ix2 r o) = v (ix1 o) :=
  (broadcastTo_1b_ab_apply _ h2 r o).trans (shapeCast_a_1a_apply v h1 0 o)

/-- The pair array flattened: row p·b + q holds pair (p, q). -/
theorem flatten_apply (X : (⟨3, ![a, b, c]⟩ : Shape).Idx → α) (hn : n = a * b)
    (h : (⟨3, ![a, b, c]⟩ : Shape).ShapeCasts ⟨2, ![n, c]⟩) (p : Fin a) (q : Fin b) (o : Fin c) :
    shapeCast ⟨2, ![n, c]⟩ X h (ix2 (flatRow hn p q) o) = X (ix3 p q o) :=
  shapeCast_apply X h _ _ (by
    rw [Shape.rowMajor_val_three, Shape.rowMajor_val_two]
    rfl)

/-- A matrix over all pairs cut back to the pair axes: pair (p, q) is row p·b + q. -/
theorem unflatten_apply (Y : (⟨2, ![n, c]⟩ : Shape).Idx → α) (hn : n = a * b)
    (h : (⟨2, ![n, c]⟩ : Shape).ShapeCasts ⟨3, ![a, b, c]⟩) (p : Fin a) (q : Fin b) (o : Fin c) :
    shapeCast ⟨3, ![a, b, c]⟩ Y h (ix3 p q o) = Y (ix2 (flatRow hn p q) o) :=
  shapeCast_apply Y h _ _ (by
    rw [Shape.rowMajor_val_three, Shape.rowMajor_val_two]
    rfl)

end Cert.PairLayout

end
-- ==== Proof.LibNeighPool.lean ====
/-
  A layer that pools over neighbours, entry by entry, on the extended reals.

  Every row p of a batch has K neighbours, each a vector of D numbers. A neighbour's vector goes through an
  affine layer and the rectifier (`hidden`); the K results of a row are added (`nsum`) and divided by a
  constant (`pooled`: the mean when the constant is K); the pooled rows are multiplied by a second weight
  matrix, the product of the row's own vector with a third matrix is added, and the rectifier is taken once
  more (`layer`). Nothing is asked of the entries: no law used here fails at an infinity.

  The vector unit computes `nsum` by flattening the [A, K, D] block to [A·K, D] (neighbour k of row p is row
  p·K + k), one matrix product into zero, a bias row broadcast over the rows, a maximum with a zero splat,
  cutting the result back to [A, K, H] and summing over the middle axis; that is `nsum` at every entry
  (`kernel_nsum`). Computed on a block of rows, `layer` gives the rows of the whole (`layer_rows`).
  Generic in all sizes.
-/
import proofs.«170516_j63067299774722_1_alg».proof.Proof.LibDense
import proofs.«170516_j63067299774722_1_alg».proof.Proof.LibPairLayout

noncomputable section

open scoped BigOperators

namespace Cert.NeighPool

open Idealize.ShloMosaic Idealize.ShloMosaic.ValueIdx Cert.Dense Cert.PairLayout

variable {A B K D H O E n : ℕ}

/-- An array of extended reals indexed by (row, neighbour, coordinate). -/
abbrev Ten (a b c : ℕ) : Type := (⟨3, ![a, b, c]⟩ : Shape).Idx → EReal

/-- Neighbour k of row p after the affine layer and the rectifier, at coordinate h:
    max(Σ_d X(p,k,d)·W(d,h) + β(h), 0). -/
def hidden (X : Ten A K D) (W : Mat D H) (β : Fin H → EReal) (p : Fin A) (k : Fin K) (h : Fin H) : EReal :=
  max ((∑ d : Fin D, X (ix3 p k d) * W (ix2 d h)) + β h) 0

/-- The sum over a row's neighbours. -/
def nsum (X : Ten A K D) (W : Mat D H) (β : Fin H → EReal) : Mat A H :=
  fun i => ∑ k : Fin K, hidden X W β (i 0) k (i 1)

/-- The sum divided by a constant. -/
def pooled (X : Ten A K D) (W : Mat D H) (β : Fin H → EReal) (c : EReal) : Mat A H :=
  fun i => Ideal.div (nsum X W β i) c

/-- The row's own projection plus the pooled projection, rectified. -/
def layer (S : Mat A E) (Ws : Mat E O) (P : Mat A H) (Wn : Mat H O) : Mat A O :=
  relu (fun i => mm S Ws i + mm P Wn i)

/-- The index over (p, q) with k inserted on the middle axis is (p, k, q). -/
theorem lift_mid (h : (⟨3, ![A, K, H]⟩ : Shape).Reduces [1] ⟨2, ![A, H]⟩) (p : Fin A) (q : Fin H) (k : Fin K) :
    h.lift (ix2 p q) k = ix3 p k q :=
  funext fun c => Fin.ext (by
    match c with
    | ⟨0, _⟩ => rfl
    | ⟨1, _⟩ => rfl
    | ⟨2, _⟩ => rfl)

/-- A sum over the middle axis of an [A, K, H] array, read at (p, q), is the sum over k of the entries (p, k, q). -/
theorem sum_mid (Y : FVec Ideal ⟨3, ![A, K, H]⟩ .f32) (h : (⟨3, ![A, K, H]⟩ : Shape).Reduces [1] ⟨2, ![A, H]⟩)
    (hφ : FKind.Formats .f32) (hacc : (0x00000000#32 : BitVec 32) = FKind.add.neutral .f32 hφ) (p : Fin A) (q : Fin H) :
    multiReduction .add [1] ⟨2, ![A, H]⟩ Y 0x00000000#32 h hφ hacc (ix2 p q) = ∑ k : Fin K, Y (ix3 p k q) :=
  (Ideal.multiReduction_add_single Y 0x00000000#32 h hφ hacc (ix2 p q)).trans
    (Finset.sum_congr rfl fun k _ => congrArg Y (lift_mid h p q k))

/-- The vector unit's neighbour sum: flatten, one product into zero, the bias row over the rows, the rectifier,
    cut back, sum over the neighbours. -/
theorem kernel_nsum (X : FVec Ideal ⟨3, ![A, K, D]⟩ .f32) (W : FVec Ideal ⟨2, ![D, H]⟩ .f32) (b : FVec Ideal ⟨2, ![1, H]⟩ .f32)
    (hn : n = A * K)
    (h1 : (⟨3, ![A, K, D]⟩ : Shape).ShapeCasts ⟨2, ![n, D]⟩)
    (h0 : (⟨2, ![1, H]⟩ : Shape).ShapeCasts ⟨2, ![1, H]⟩)
    (h2 : (⟨2, ![1, H]⟩ : Shape).Broadcasts ⟨2, ![n, H]⟩)
    (h3 : (⟨2, ![n, H]⟩ : Shape).ShapeCasts ⟨3, ![A, K, H]⟩)
    (h4 : (⟨3, ![A, K, H]⟩ : Shape).Reduces [1] ⟨2, ![A, H]⟩)
    (hφ : FKind.Formats .f32) (hacc : (0x00000000#32 : BitVec 32) = FKind.add.neutral .f32 hφ)
    (tr : FTy.bf16.bits < FTy.f32.bits) :
    multiReduction .add [1] ⟨2, ![A, H]⟩
      (shapeCast ⟨3, ![A, K, H]⟩
        (maximumf
          (addf
            (matmul (DotDims.plain n D H) none (truncf .bf16 (shapeCast ⟨2, ![n, D]⟩ X h1) tr) (truncf .bf16 W tr)
              (constant (F := Ideal) ⟨2, ![n, H]⟩ .f32 0x00000000#32))
            (broadcastTo ⟨2, ![n, H]⟩ (shapeCast ⟨2, ![1, H]⟩ b h0) h2))
          (broadcast ⟨2, ![n, H]⟩ (Scalar.ofBits (F := Ideal) .f32 0x00000000#32)))
        h3)
      0x00000000#32 h4 hφ hacc
    = nsum X W (fun h => b (ix2 (0 : Fin 1) h)) := by
  rw [shapeCast_self b h0]
  have e : maximumf
          (addf
            (matmul (DotDims.plain n D H) none (truncf .bf16 (shapeCast ⟨2, ![n, D]⟩ X h1) tr) (truncf .bf16 W tr)
              (constant (F := Ideal) ⟨2, ![n, H]⟩ .f32 0x00000000#32))
            (broadcastTo ⟨2, ![n, H]⟩ b h2))
          (broadcast ⟨2, ![n, H]⟩ (Scalar.ofBits (F := Ideal) .f32 0x00000000#32))
        = relu (affine2 (shapeCast ⟨2, ![n, D]⟩ X h1) W b) :=
    (congrArg (fun Y => maximumf Y (broadcast ⟨2, ![n, H]⟩ (Scalar.ofBits (F := Ideal) .f32 0x00000000#32)))
      (addf_matmul_broadcastTo none (truncf .bf16 (shapeCast ⟨2, ![n, D]⟩ X h1) tr) (truncf .bf16 W tr) b h2)).trans
      (maximumf_splat_zero _)
  rw [e]
  funext j
  obtain ⟨p, q, rfl⟩ : ∃ (p : Fin A) (q : Fin H), j = ix2 p q := ⟨j 0, j 1, eq_ix2 j⟩
  refine (sum_mid _ h4 hφ hacc p q).trans ?_
  unfold nsum
  refine Finset.sum_congr rfl fun k _ => ?_
  rw [unflatten_apply _ hn h3 p k q]
  show max ((∑ d : Fin D, shapeCast ⟨2, ![n, D]⟩ X h1 (ix2 (flatRow hn p k) d) * W (ix2 d q)) + b (ix2 (0 : Fin 1) q)) 0
      = hidden X W (fun h => b (ix2 (0 : Fin 1) h)) p k q
  unfold hidden
  exact congrArg (fun s => max (s + b (ix2 (0 : Fin 1) q)) 0)
    (Finset.sum_congr rfl fun d _ => congrArg (· * W (ix2 d q)) (flatten_apply X hn h1 p k d))

/-- The vector unit's pooled projection: the sums divided by a splat, times the weights, into zero. -/
theorem kernel_proj (Sm : FVec Ideal ⟨2, ![A, H]⟩ .f32) (c : Ideal .f32) (Wn : FVec Ideal ⟨2, ![H, O]⟩ .f32)
    (tr : FTy.bf16.bits < FTy.f32.bits) :
    matmul (DotDims.plain A H O) none (truncf .bf16 (divf Sm (broadcast ⟨2, ![A, H]⟩ c)) tr) (truncf .bf16 Wn tr)
      (constant (F := Ideal) ⟨2, ![A, O]⟩ .f32 0x00000000#32)
    = mm (fun i => Ideal.div (Sm i) c) Wn :=
  matmul_plain_zero none (truncf .bf16 (divf Sm (broadcast ⟨2, ![A, H]⟩ c)) tr) (truncf .bf16 Wn tr)

/-- The vector unit's last step: the row's own product into zero, plus the pooled projection, rectified. -/
theorem kernel_combine (S : FVec Ideal ⟨2, ![A, E]⟩ .f32) (Ws : FVec Ideal ⟨2, ![E, O]⟩ .f32) (V : FVec Ideal ⟨2, ![A, O]⟩ .f32)
    (tr : FTy.bf16.bits < FTy.f32.bits) :
    maximumf
      (addf
        (matmul (DotDims.plain A E O) none (truncf .bf16 S tr) (truncf .bf16 Ws tr)
          (constant (F := Ideal) ⟨2, ![A, O]⟩ .f32 0x00000000#32))
        V)
      (broadcast ⟨2, ![A, O]⟩ (Scalar.ofBits (F := Ideal) .f32 0x00000000#32))
    = relu (fun i => mm S Ws i + V i) :=
  (congrArg (fun Y => maximumf (addf Y V) (broadcast ⟨2, ![A, O]⟩ (Scalar.ofBits (F := Ideal) .f32 0x00000000#32)))
    (matmul_plain_zero none (truncf .bf16 S tr) (truncf .bf16 Ws tr))).trans (maximumf_splat_zero _)

/-- Rows of the neighbour sum: on a block whose row p is row ρ p of the whole array, the sums are the whole
    array's at those rows. -/
theorem hidden_rows (X : Ten B K D) (blk : Ten A K D) (W : Mat D H) (β : Fin H → EReal) (ρ : Fin A → Fin B)
    (hX : ∀ p k d, blk (ix3 p k d) = X (ix3 (ρ p) k d)) (p : Fin A) (k : Fin K) (h : Fin H) :
    hidden blk W β p k h = hidden X W β (ρ p) k h := by
  unfold hidden
  exact congrArg (fun s => max (s + β h) 0) (Finset.sum_congr rfl fun d _ => congrArg (· * W (ix2 d h)) (hX p k d))

theorem pooled_rows (X : Ten B K D) (blk : Ten A K D) (W : Mat D H) (β : Fin H → EReal) (c : EReal) (ρ : Fin A → Fin B)
    (hX : ∀ p k d, blk (ix3 p k d) = X (ix3 (ρ p) k d)) (p : Fin A) (h : Fin H) :
    pooled blk W β c (ix2 p h) = pooled X W β c (ix2 (ρ p) h) := by
  show Ideal.div (∑ k : Fin K, hidden blk W β p k h) c = Ideal.div (∑ k : Fin K, hidden X W β (ρ p) k h) c
  exact congrArg (fun s => Ideal.div s c) (Finset.sum_congr rfl fun k _ => hidden_rows X blk W β ρ hX p k h)

/-- Rows of the layer: computed on a block of rows, with the whole weight matrices, it gives the rows of the whole. -/
theorem layer_rows (S : Mat B E) (Sblk : Mat A E) (Ws : Mat E O) (X : Ten B K D) (blk : Ten A K D) (W : Mat D H)
    (β : Fin H → EReal) (c : EReal) (Wn : Mat H O) (ρ : Fin A → Fin B)
    (hS : ∀ p e, Sblk (ix2 p e) = S (ix2 (ρ p) e)) (hX : ∀ p k d, blk (ix3 p k d) = X (ix3 (ρ p) k d))
    (p : Fin A) (o : Fin O) :
    layer Sblk Ws (pooled blk W β c) Wn (ix2 p o) = layer S Ws (pooled X W β c) Wn (ix2 (ρ p) o) := by
  show max (mm Sblk Ws (ix2 p o) + mm (pooled blk W β c) Wn (ix2 p o)) 0
      = max (mm S Ws (ix2 (ρ p) o) + mm (pooled X W β c) Wn (ix2 (ρ p) o)) 0
  rw [mm_rows S Sblk Ws ρ hS p o, mm_rows (pooled X W β c) (pooled blk W β c) Wn ρ (pooled_rows X blk W β c ρ hX) p o]

end Cert.NeighPool

end
-- ==== Proof.Spec.lean ====
/-
  The two results as one function of the argument arrays.

  For 16384 rows with 32 neighbours each, a result at (row b, column o) is
    max( Σ_e S(b,e)·Ws(e,o) + Σ_h ( (Σ_k max(Σ_d X(b,k,d)·W(d,h) + β(h), 0)) / 32 )·Wn(h,o), 0 )
  where S holds the rows' own vectors, X the neighbours' vectors, W and β the first layer's weights and bias, and
  Ws, Wn the two projections. The divisor is kept as the f32 word of 32, the same word on both sides. The feature
  result uses vectors of 128 numbers, the second result vectors of 64 numbers; the function is generic in both.
-/
import proofs.«170516_j63067299774722_1_alg».proof.Proof.LibNeighPool

noncomputable section

namespace Cert.Spec

open Idealize.ShloMosaic Idealize.ShloMosaic.ValueIdx Cert.Dense Cert.NeighPool

/-- The divisor of the mean over the 32 neighbours, as the programs spell it. -/
def c32 : EReal := Ideal.ofBits .f32 0x42000000#32

/-- A bias vector read as a function of the column. -/
def biasOf (b : Row 512) : Fin 512 → EReal := fun h => b (ix1 h)

/-- One result array: the rows' own projection plus the projection of the mean over the neighbours of the
    rectified first layer, rectified. -/
def G {D E : ℕ} (S : Mat 16384 E) (X : Ten 16384 32 D) (W : Mat D 512) (b : Row 512) (Wn : Mat 512 256) (Ws : Mat E 256) :
    Mat 16384 256 :=
  layer S Ws (pooled X W (biasOf b) c32) Wn

end Cert.Spec

end
-- ==== Proof.Payload.lean ====
/-
  What the kernel's body computes on one block of 128 rows.

  The body's arithmetic is four pure terms of the loaded blocks. The neighbour sums of the second branch and the
  pooled projection of the first are the vector unit's spelling of the neighbour sum (flatten the
  [128, 32, ·] block to [4096, ·], one product into zero, the bias row, the rectifier, cut back, sum over the 32
  neighbours), divided by a splat of 32 and multiplied into zero by the projection; each stored block adds the
  rows' own product and takes the rectifier. A change of float format is the identity on the extended reals, so
  each stored block is the layer of the specification on the block's 128 rows with the whole weight matrices.
-/
import proofs.«170516_j63067299774722_1_alg».proof.Proof.Gen.KernelIdeal.Skeleton
import proofs.«170516_j63067299774722_1_alg».proof.Proof.Spec

noncomputable section

namespace Cert.KernelIdeal.Body

open Cert.KernelIdeal Cert.KernelIdeal.Gen Idealize.ShloMosaic Idealize.ShloMosaic.ValueIdx Cert.Dense Cert.NeighPool Cert.Spec

/-- A bias stored as a one-row matrix, read as a function of the column. -/
def biasRow (b : Mat 1 512) : Fin 512 → EReal := fun h => b (ix2 (0 : Fin 1) h)

/-- The second branch's sums over the neighbours. -/
theorem sums_geto (v20 : Vec Ideal S128x32x64 .f32) (v23 : Vec Ideal S64x512 .f32) (v26 : Vec Ideal S1x512 .f32) :
    k0_pay4 (F := Ideal) v20 v23 v26 = nsum v20 v23 (biasRow v26) := by
  unfold k0_pay4
  exact kernel_nsum (n := 4096) v20 v23 v26 rfl _ _ _ _ _ _ _ _

/-- The first branch's pooled projection. -/
theorem proj_feat (v0 : Vec Ideal S128x32x128 .f32) (v3 : Vec Ideal S128x512 .f32) (v6 : Vec Ideal S1x512 .f32)
    (v17 : Vec Ideal S512x256 .f32) :
    k0_pay3 (F := Ideal) v0 v3 v6 v17 = mm (pooled v0 v3 (biasRow v6) c32) v17 := by
  unfold k0_pay3
  refine (kernel_proj _ _ v17 _).trans ?_
  exact congrArg (fun Sm : Mat 128 512 => mm (fun i => Ideal.div (Sm i) c32) v17)
    (kernel_nsum (n := 4096) v0 v3 v6 rfl _ _ _ _ _ _ _ _)

/-- The first stored block: the rows' own product plus a given projection, rectified. -/
theorem store_feat (v19 : FVec Ideal S128x256 .f32) (v40 : Vec Ideal S128x128 .f32) (v42 : Vec Ideal S128x256 .f32) :
    k0_pay1 (F := Ideal) v19 v40 v42 = relu (fun i => mm v40 v42 i + v19 i) := by
  unfold k0_pay1
  exact kernel_combine v40 v42 v19 _

/-- The second stored block: the rows' own product plus the projection of the given sums divided by a constant, rectified. -/
theorem store_geto (v33 : FVec Ideal S128x512 .f32) (c : Ideal .f32) (v37 : Vec Ideal S512x256 .f32) (v45 : Vec Ideal S128x64 .f32)
    (v47 : Vec Ideal S64x256 .f32) :
    k0_pay2 (F := Ideal) v33 c v37 v45 v47 = relu (fun i => mm v45 v47 i + mm (fun i => Ideal.div (v33 i) c) v37 i) := by
  unfold k0_pay2
  refine (kernel_combine v45 v47 _ _).trans ?_
  exact congrArg (fun V : Mat 128 256 => relu (fun i => mm v45 v47 i + V i)) (kernel_proj v33 c v37 _)

/-- The first stored block is the layer on the block's rows. -/
theorem block_feat (x0 : Vec Ideal S128x128 .f32) (x1 : Vec Ideal S128x32x128 .f32) (x4 : Vec Ideal S128x512 .f32)
    (x5 : Vec Ideal S1x512 .f32) (x8 : Vec Ideal S512x256 .f32) (x9 : Vec Ideal S128x256 .f32) :
    k0_pay1 (F := Ideal) (k0_pay3 x1 x4 x5 x8) x0 x9 = layer x0 x9 (pooled x1 x4 (biasRow x5) c32) x8 := by
  rw [proj_feat, store_feat]
  rfl

/-- The second stored block is the layer on the block's rows. -/
theorem block_geto (x2 : Vec Ideal S128x64 .f32) (x3 : Vec Ideal S128x32x64 .f32) (x6 : Vec Ideal S64x512 .f32)
    (x7 : Vec Ideal S1x512 .f32) (x10 : Vec Ideal S64x256 .f32) (x11 : Vec Ideal S512x256 .f32) :
    k0_pay2 (F := Ideal) (k0_pay4 x3 x6 x7) (Scalar.ofBits .f32 0x42000000#32) x11 x2 x10
      = layer x2 x10 (pooled x3 x6 (biasRow x7) c32) x11 := by
  rw [sums_geto, store_geto]
  rfl

end Cert.KernelIdeal.Body

end
-- ==== Proof.Blocks.lean ====
/-
  From blocks of 128 rows to the two result arrays.

  The grid has 128 points; at point t the four row-indexed windows hold rows 128·t … 128·t + 127 of their arrays
  and the eight weight and bias windows hold their whole arrays (the bias rows are the bias vectors laid out as one
  row by the host before the region). Each output window's block at point t is written back to rows
  128·t … 128·t + 127 of its array, so point r / 128 covers row r and the blocks tile the array. The stored block is
  the layer on the block's rows, which gives those rows of the layer on the whole arrays; hence each result array
  ends holding the specification's function of the arguments.
-/
import proofs.«170516_j63067299774722_1_alg».proof.Proof.Gen.KernelIdeal.Value
import proofs.«170516_j63067299774722_1_alg».proof.Proof.Payload
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Cert.KernelIdeal.Body
open Idealize.ShloMosaic.ValueIdx Idealize.ShloMosaic.StableHlo Cert.Dense Cert.NeighPool Cert.Spec

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Row p of the block at point t is row 128·t + p of the array. -/
def rowOf (t : Fin cfg0.N) (p : Fin 128) : Fin 16384 :=
  ⟨t.val * 128 + p.val, by
    have h : t.val < 128 := lt_of_lt_of_eq t.isLt N_0
    have hp := p.isLt
    omega⟩

/-! ## The weight and bias windows: whole arrays at every point -/

theorem idx_whole_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_whole_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_whole_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_whole_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_whole_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_whole_11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx_whole_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_whole_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 4 is not cut: at every point its block is its whole array. -/
theorem whole_4 (c : Dev nD) (t : Fin cfg0.N) :
    (iblk m c 4 t : Vec Ideal S128x512 .f32) = (V m c main_arg4 : S128x512.Idx → EReal) := by
  have e0 : win0_4.index t (0 : Fin 2) = 0 := (idx_whole_4 t).1
  have e1 : win0_4.index t (1 : Fin 2) = 0 := (idx_whole_4 t).2
  funext y
  unfold iblk
  rw [View.read_apply]
  show V m c main_arg4 _ = V m c main_arg4 y
  refine congrArg (V m c main_arg4) (funext fun a => Fin.ext ?_)
  match a with
  | ⟨0, _⟩ => show win0_4.index t (0 : Fin 2) * 128 + 1 * (y 0).val = (y 0).val; rw [e0]; omega
  | ⟨1, _⟩ => show win0_4.index t (1 : Fin 2) * 512 + 1 * (y 1).val = (y 1).val; rw [e1]; omega

/-- Window 6 is not cut: at every point its block is its whole array. -/
theorem whole_6 (c : Dev nD) (t : Fin cfg0.N) :
    (iblk m c 6 t : Vec Ideal S64x512 .f32) = (V m c main_arg6 : S64x512.Idx → EReal) := by
  have e0 : win0_6.index t (0 : Fin 2) = 0 := (idx_whole_6 t).1
  have e1 : win0_6.index t (1 : Fin 2) = 0 := (idx_whole_6 t).2
  funext y
  unfold iblk
  rw [View.read_apply]
  show V m c main_arg6 _ = V m c main_arg6 y
  refine congrArg (V m c main_arg6) (funext fun a => Fin.ext ?_)
  match a with
  | ⟨0, _⟩ => show win0_6.index t (0 : Fin 2) * 64 + 1 * (y 0).val = (y 0).val; rw [e0]; omega
  | ⟨1, _⟩ => show win0_6.index t (1 : Fin 2) * 512 + 1 * (y 1).val = (y 1).val; rw [e1]; omega

/-- Window 8 is not cut: at every point its block is its whole array. -/
theorem whole_8 (c : Dev nD) (t : Fin cfg0.N) :
    (iblk m c 8 t : Vec Ideal S512x256 .f32) = (V m c main_arg8 : S512x256.Idx → EReal) := by
  have e0 : win0_8.index t (0 : Fin 2) = 0 := (idx_whole_8 t).1
  have e1 : win0_8.index t (1 : Fin 2) = 0 := (idx_whole_8 t).2
  funext y
  unfold iblk
  rw [View.read_apply]
  show V m c main_arg8 _ = V m c main_arg8 y
  refine congrArg (V m c main_arg8) (funext fun a => Fin.ext ?_)
  match a with
  | ⟨0, _⟩ => show win0_8.index t (0 : Fin 2) * 512 + 1 * (y 0).val = (y 0).val; rw [e0]; omega
  | ⟨1, _⟩ => show win0_8.index t (1 : Fin 2) * 256 + 1 * (y 1).val = (y 1).val; rw [e1]; omega

/-- Window 9 is not cut: at every point its block is its whole array. -/
theorem whole_9 (c : Dev nD) (t : Fin cfg0.N) :
    (iblk m c 9 t : Vec Ideal S128x256 .f32) = (V m c main_arg9 : S128x256.Idx → EReal) := by
  have e0 : win0_9.index t (0 : Fin 2) = 0 := (idx_whole_9 t).1
  have e1 : win0_9.index t (1 : Fin 2) = 0 := (idx_whole_9 t).2
  funext y
  unfold iblk
  rw [View.read_apply]
  show V m c main_arg9 _ = V m c main_arg9 y
  refine congrArg (V m c main_arg9) (funext fun a => Fin.ext ?_)
  match a with
  | ⟨0, _⟩ => show win0_9.index t (0 : Fin 2) * 128 + 1 * (y 0).val = (y 0).val; rw [e0]; omega
  | ⟨1, _⟩ => show win0_9.index t (1 : Fin 2) * 256 + 1 * (y 1).val = (y 1).val; rw [e1]; omega

/-- Window 10 is not cut: at every point its block is its whole array. -/
theorem whole_10 (c : Dev nD) (t : Fin cfg0.N) :
    (iblk m c 10 t : Vec Ideal S64x256 .f32) = (V m c main_arg10 : S64x256.Idx → EReal) := by
  have e0 : win0_10.index t (0 : Fin 2) = 0 := (idx_whole_10 t).1
  have e1 : win0_10.index t (1 : Fin 2) = 0 := (idx_whole_10 t).2
  funext y
  unfold iblk
  rw [View.read_apply]
  show V m c main_arg10 _ = V m c main_arg10 y
  refine congrArg (V m c main_arg10) (funext fun a => Fin.ext ?_)
  match a with
  | ⟨0, _⟩ => show win0_10.index t (0 : Fin 2) * 64 + 1 * (y 0).val = (y 0).val; rw [e0]; omega
  | ⟨1, _⟩ => show win0_10.index t (1 : Fin 2) * 256 + 1 * (y 1).val = (y 1).val; rw [e1]; omega

/-- Window 11 is not cut: at every point its block is its whole array. -/
theorem whole_11 (c : Dev nD) (t : Fin cfg0.N) :
    (iblk m c 11 t : Vec Ideal S512x256 .f32) = (V m c main_arg11 : S512x256.Idx → EReal) := by
  have e0 : win0_11.index t (0 : Fin 2) = 0 := (idx_whole_11 t).1
  have e1 : win0_11.index t (1 : Fin 2) = 0 := (idx_whole_11 t).2
  funext y
  unfold iblk
  rw [View.read_apply]
  show V m c main_arg11 _ = V m c main_arg11 y
  refine congrArg (V m c main_arg11) (funext fun a => Fin.ext ?_)
  match a with
  | ⟨0, _⟩ => show win0_11.index t (0 : Fin 2) * 512 + 1 * (y 0).val = (y 0).val; rw [e0]; omega
  | ⟨1, _⟩ => show win0_11.index t (1 : Fin 2) * 256 + 1 * (y 1).val = (y 1).val; rw [e1]; omega

/-- Window 5 is not cut: at every point its block is its whole array. -/
theorem whole_5 (c : Dev nD) (t : Fin cfg0.N) :
    (iblk m c 5 t : Vec Ideal S1x512 .f32) = (V m c main_v0 : S1x512.Idx → EReal) := by
  have e0 : win0_5.index t (0 : Fin 2) = 0 := (idx_whole_5 t).1
  have e1 : win0_5.index t (1 : Fin 2) = 0 := (idx_whole_5 t).2
  funext y
  unfold iblk
  rw [View.read_apply]
  show V m c main_v0 _ = V m c main_v0 y
  refine congrArg (V m c main_v0) (funext fun a => Fin.ext ?_)
  match a with
  | ⟨0, _⟩ => show win0_5.index t (0 : Fin 2) * 1 + 1 * (y 0).val = (y 0).val; rw [e0]; omega
  | ⟨1, _⟩ => show win0_5.index t (1 : Fin 2) * 512 + 1 * (y 1).val = (y 1).val; rw [e1]; omega

/-- Window 7 is not cut: at every point its block is its whole array. -/
theorem whole_7 (c : Dev nD) (t : Fin cfg0.N) :
    (iblk m c 7 t : Vec Ideal S1x512 .f32) = (V m c main_v1 : S1x512.Idx → EReal) := by
  have e0 : win0_7.index t (0 : Fin 2) = 0 := (idx_whole_7 t).1
  have e1 : win0_7.index t (1 : Fin 2) = 0 := (idx_whole_7 t).2
  funext y
  unfold iblk
  rw [View.read_apply]
  show V m c main_v1 _ = V m c main_v1 y
  refine congrArg (V m c main_v1) (funext fun a => Fin.ext ?_)
  match a with
  | ⟨0, _⟩ => show win0_7.index t (0 : Fin 2) * 1 + 1 * (y 0).val = (y 0).val; rw [e0]; omega
  | ⟨1, _⟩ => show win0_7.index t (1 : Fin 2) * 512 + 1 * (y 1).val = (y 1).val; rw [e1]; omega

/-- The bias row the region finds in window 5 is the bias vector laid out as one row. -/
theorem bias_5 (c : Dev nD) : biasRow (V m c main_v0 : S1x512.Idx → EReal) = biasOf (V m c main_arg5) := by
  have e : (V m c main_v0 : S1x512.Idx → EReal) = shapeCast S1x512 (m ((c : Thread nD τ).loc main_arg5)) shapeCasts_S512_S1x512 := by
    dsimp only [Gen.V, Gen.hostOps0]
    after_results
    rfl
  funext h
  show (V m c main_v0 : S1x512.Idx → EReal) (ix2 (0 : Fin 1) h) = (V m c main_arg5 : S512.Idx → EReal) (ix1 h)
  rw [e, V_main_arg5]
  exact shapeCast_a_1a_apply _ shapeCasts_S512_S1x512 0 h

/-- The bias row the region finds in window 7 is the bias vector laid out as one row. -/
theorem bias_7 (c : Dev nD) : biasRow (V m c main_v1 : S1x512.Idx → EReal) = biasOf (V m c main_arg7) := by
  have e : (V m c main_v1 : S1x512.Idx → EReal) = shapeCast S1x512 (m ((c : Thread nD τ).loc main_arg7)) shapeCasts_S512_S1x512 := by
    dsimp only [Gen.V, Gen.hostOps0]
    after_results
    rfl
  funext h
  show (V m c main_v1 : S1x512.Idx → EReal) (ix2 (0 : Fin 1) h) = (V m c main_arg7 : S512.Idx → EReal) (ix1 h)
  rw [e, V_main_arg7]
  exact shapeCast_a_1a_apply _ shapeCasts_S512_S1x512 0 h

/-! ## The row-indexed input windows -/

theorem idx_rows_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row p of window 0's block at point t is row 128·t + p of its array. -/
theorem rows_0 (c : Dev nD) (t : Fin cfg0.N) (p : Fin 128) (e : Fin 128) :
    (iblk m c 0 t : Vec Ideal S128x128 .f32) (ix2 p e) = (V m c main_arg0 : S16384x128.Idx → EReal) (ix2 (rowOf t p) e) := by
  have e0 : win0_0.index t (0 : Fin 2) = t.val := (idx_rows_0 t).1
  have e1 : win0_0.index t (1 : Fin 2) = 0 := (idx_rows_0 t).2
  unfold iblk
  rw [View.read_apply]
  show V m c main_arg0 _ = V m c main_arg0 _
  refine congrArg (V m c main_arg0) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 128 + 1 * e.val = e.val; rw [e1]; omega

theorem idx_rows_1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Row p of window 1's block at point t holds the neighbours of row 128·t + p of its array. -/
theorem rows_1 (c : Dev nD) (t : Fin cfg0.N) (p : Fin 128) (k : Fin 32) (d : Fin 128) :
    (iblk m c 1 t : Vec Ideal S128x32x128 .f32) (ix3 p k d) = (V m c main_arg1 : S16384x32x128.Idx → EReal) (ix3 (rowOf t p) k d) := by
  have e0 : win0_1.index t (0 : Fin 3) = t.val := (idx_rows_1 t).1
  have e1 : win0_1.index t (1 : Fin 3) = 0 := (idx_rows_1 t).2.1
  have e2 : win0_1.index t (2 : Fin 3) = 0 := (idx_rows_1 t).2.2
  unfold iblk
  rw [View.read_apply]
  show V m c main_arg1 _ = V m c main_arg1 _
  refine congrArg (V m c main_arg1) (funext fun a => Fin.ext ?_)
  match a with
  | ⟨0, _⟩ => show win0_1.index t (0 : Fin 3) * 128 + 1 * p.val = t.val * 128 + p.val; rw [e0]; omega
  | ⟨1, _⟩ => show win0_1.index t (1 : Fin 3) * 32 + 1 * k.val = k.val; rw [e1]; omega
  | ⟨2, _⟩ => show win0_1.index t (2 : Fin 3) * 128 + 1 * d.val = d.val; rw [e2]; omega

theorem idx_rows_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row p of window 2's block at point t is row 128·t + p of its array. -/
theorem rows_2 (c : Dev nD) (t : Fin cfg0.N) (p : Fin 128) (e : Fin 64) :
    (iblk m c 2 t : Vec Ideal S128x64 .f32) (ix2 p e) = (V m c main_arg2 : S16384x64.Idx → EReal) (ix2 (rowOf t p) e) := by
  have e0 : win0_2.index t (0 : Fin 2) = t.val := (idx_rows_2 t).1
  have e1 : win0_2.index t (1 : Fin 2) = 0 := (idx_rows_2 t).2
  unfold iblk
  rw [View.read_apply]
  show V m c main_arg2 _ = V m c main_arg2 _
  refine congrArg (V m c main_arg2) (funext fun a => Fin.ext ?_)
  match a with
  | ⟨0, _⟩ => show win0_2.index t (0 : Fin 2) * 128 + 1 * p.val = t.val * 128 + p.val; rw [e0]; omega
  | ⟨1, _⟩ => show win0_2.index t (1 : Fin 2) * 64 + 1 * e.val = e.val; rw [e1]; omega

theorem idx_rows_3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)

/-- Row p of window 3's block at point t holds the neighbours of row 128·t + p of its array. -/
theorem rows_3 (c : Dev nD) (t : Fin cfg0.N) (p : Fin 128) (k : Fin 32) (d : Fin 64) :
    (iblk m c 3 t : Vec Ideal S128x32x64 .f32) (ix3 p k d) = (V m c main_arg3 : S16384x32x64.Idx → EReal) (ix3 (rowOf t p) k d) := by
  have e0 : win0_3.index t (0 : Fin 3) = t.val := (idx_rows_3 t).1
  have e1 : win0_3.index t (1 : Fin 3) = 0 := (idx_rows_3 t).2.1
  have e2 : win0_3.index t (2 : Fin 3) = 0 := (idx_rows_3 t).2.2
  unfold iblk
  rw [View.read_apply]
  show V m c main_arg3 _ = V m c main_arg3 _
  refine congrArg (V m c main_arg3) (funext fun a => Fin.ext ?_)
  match a with
  | ⟨0, _⟩ => show win0_3.index t (0 : Fin 3) * 128 + 1 * p.val = t.val * 128 + p.val; rw [e0]; omega
  | ⟨1, _⟩ => show win0_3.index t (1 : Fin 3) * 32 + 1 * k.val = k.val; rw [e1]; omega
  | ⟨2, _⟩ => show win0_3.index t (2 : Fin 3) * 64 + 1 * d.val = d.val; rw [e2]; omega

/-! ## The first result -/

theorem idx_rows_12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

/-- Entry (p, o) of output window 12's block at point t is entry (128·t + p, o) of its array. -/
theorem emb_12 (t : Fin cfg0.N) (p : Fin 128) (o : Fin 256) :
    ((cfg0.win 12).blk t).view.emb (ix2 p o) = (ix2 (rowOf t p) o : S16384x256.Idx) := by
  have e0 : win0_12.index t (0 : Fin 2) = t.val := (idx_rows_12 t).1
  have e1 : win0_12.index t (1 : Fin 2) = 0 := (idx_rows_12 t).2
  funext a
  apply Fin.ext
  match a with
  | ⟨0, _⟩ => show win0_12.index t (0 : Fin 2) * 128 + 1 * p.val = t.val * 128 + p.val; rw [e0]; omega
  | ⟨1, _⟩ => show win0_12.index t (1 : Fin 2) * 256 + 1 * o.val = o.val; rw [e1]; omega

/-- What point t writes back to output window 12's array is block t of the specification's function of the
    arrays as the region finds them: the stored block is the layer on the block's rows, and the layer on a block
    of rows gives the rows of the whole. -/
theorem flushed_feat (c : Dev nD) (t : Fin cfg0.N) :
    (dats m 0 c).flushed 12 t = ((cfg0.win 12).blk t).view.read (Elt Ideal)
      (G (V m c main_arg0) (V m c main_arg1) (V m c main_arg4) (V m c main_arg5) (V m c main_arg8) (V m c main_arg9)) := by
  rw [flushed12]
  unfold out0_12
  rw [View.canon_unit_zero hz2]
  simp only [View.ld_unit_zero (S := S128x128) hz2, View.ld_unit_zero (S := S128x32x128) hz3, View.ld_unit_zero (S := S128x512) hz2,
    View.ld_unit_zero (S := S1x512) hz2, View.ld_unit_zero (S := S512x256) hz2, View.ld_unit_zero (S := S128x256) hz2]
  rw [block_feat, whole_4 m c t, whole_5 m c t, whole_8 m c t, whole_9 m c t, bias_5 m c]
  funext y
  obtain ⟨p, o, rfl⟩ : ∃ (p : Fin 128) (o : Fin 256), y = ix2 p o := ⟨y 0, y 1, eq_ix2 y⟩
  show layer (iblk m c 0 t : Vec Ideal S128x128 .f32) (V m c main_arg9) (pooled (iblk m c 1 t : Vec Ideal S128x32x128 .f32) (V m c main_arg4) (biasOf (V m c main_arg5)) c32) (V m c main_arg8) (ix2 p o)
      = G (V m c main_arg0) (V m c main_arg1) (V m c main_arg4) (V m c main_arg5) (V m c main_arg8) (V m c main_arg9) (((cfg0.win 12).blk t).view.emb (ix2 p o))
  rw [emb_12 t p o]
  exact layer_rows (V m c main_arg0 : S16384x128.Idx → EReal) (iblk m c 0 t : Vec Ideal S128x128 .f32) (V m c main_arg9)
    (V m c main_arg1 : S16384x32x128.Idx → EReal) (iblk m c 1 t : Vec Ideal S128x32x128 .f32) (V m c main_arg4) (biasOf (V m c main_arg5)) c32 (V m c main_arg8)
    (rowOf t) (rows_0 m c t) (rows_1 m c t) p o

/-- An index of the array is in point t's block iff each coordinate is in the block's range on its axis. -/
theorem mem_blk_12 (t : Fin cfg0.N) (i : S16384x256.Idx) :
    i ∈ ((cfg0.win 12).blk t).view.set ↔ ∀ a : Fin 2, win0_12.index t a * S128x256.size a ≤ (i a).val ∧ (i a).val < win0_12.index t a * S128x256.size a + S128x256.size a := by
  show i ∈ ((View.whole main_v2_0).slice (win0_12.rect t)).set ↔ _
  rw [View.set_slice_whole, Rect.mem_set_unit]
  exact Iff.rfl

/-- Every index of the array is in the block of the point its row falls in: row r is in block r / 128. -/
theorem cover_12 (i : S16384x256.Idx) : ∃ t : Fin cfg0.N, (cfg0.win 12).flush t = true ∧ i ∈ ((cfg0.win 12).blk t).view.set := by
  have hi0 : (i 0).val < 16384 := (i 0).isLt
  have hi1 : (i 1).val < 256 := (i 1).isLt
  obtain ⟨t, ht⟩ : ∃ t : Fin cfg0.N, t.val = (i 0).val / 128 :=
    ⟨⟨(i 0).val / 128, lt_of_lt_of_eq (by omega : (i 0).val / 128 < 128) N_0.symm⟩, rfl⟩
  have e0 : win0_12.index t (0 : Fin 2) = t.val := (idx_rows_12 t).1
  have e1 : win0_12.index t (1 : Fin 2) = 0 := (idx_rows_12 t).2
  refine ⟨t, flush0_12 t, ?_⟩
  rw [mem_blk_12]
  intro a
  match a with
  | ⟨0, _⟩ => show win0_12.index t (0 : Fin 2) * 128 ≤ (i 0).val ∧ (i 0).val < win0_12.index t (0 : Fin 2) * 128 + 128; rw [e0]; omega
  | ⟨1, _⟩ => show win0_12.index t (1 : Fin 2) * 256 ≤ (i 1).val ∧ (i 1).val < win0_12.index t (1 : Fin 2) * 256 + 256; rw [e1]; omega

/-- So the array after the run is the specification's function of the argument arrays. -/
theorem final_feat (c : Dev nD) : (dats m 0 c).arrAt 12 cfg0.N
    = G (m ((c : Thread nD τ).loc main_arg0)) (m ((c : Thread nD τ).loc main_arg1)) (m ((c : Thread nD τ).loc main_arg4))
        (m ((c : Thread nD τ).loc main_arg5)) (m ((c : Thread nD τ).loc main_arg8)) (m ((c : Thread nD τ).loc main_arg9)) := by
  have h := (dats m 0 c).arrAt_eq_of_cover 12
    (G (V m c main_arg0) (V m c main_arg1) (V m c main_arg4) (V m c main_arg5) (V m c main_arg8) (V m c main_arg9))
    (fun t _ => flushed_feat m c t) cover_12
  rw [V_main_arg0, V_main_arg1, V_main_arg4, V_main_arg5, V_main_arg8, V_main_arg9] at h
  exact h

/-! ## The second result -/

theorem idx_rows_13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-- Entry (p, o) of output window 13's block at point t is entry (128·t + p, o) of its array. -/
theorem emb_13 (t : Fin cfg0.N) (p : Fin 128) (o : Fin 256) :
    ((cfg0.win 13).blk t).view.emb (ix2 p o) = (ix2 (rowOf t p) o : S16384x256.Idx) := by
  have e0 : win0_13.index t (0 : Fin 2) = t.val := (idx_rows_13 t).1
  have e1 : win0_13.index t (1 : Fin 2) = 0 := (idx_rows_13 t).2
  funext a
  apply Fin.ext
  match a with
  | ⟨0, _⟩ => show win0_13.index t (0 : Fin 2) * 128 + 1 * p.val = t.val * 128 + p.val; rw [e0]; omega
  | ⟨1, _⟩ => show win0_13.index t (1 : Fin 2) * 256 + 1 * o.val = o.val; rw [e1]; omega

/-- What point t writes back to output window 13's array is block t of the specification's function of the
    arrays as the region finds them: the stored block is the layer on the block's rows, and the layer on a block
    of rows gives the rows of the whole. -/
theorem flushed_geto (c : Dev nD) (t : Fin cfg0.N) :
    (dats m 0 c).flushed 13 t = ((cfg0.win 13).blk t).view.read (Elt Ideal)
      (G (V m c main_arg2) (V m c main_arg3) (V m c main_arg6) (V m c main_arg7) (V m c main_arg11) (V m c main_arg10)) := by
  rw [flushed13]
  unfold out0_13
  rw [View.canon_unit_zero hz2]
  simp only [View.ld_unit_zero (S := S128x64) hz2, View.ld_unit_zero (S := S128x32x64) hz3, View.ld_unit_zero (S := S64x512) hz2,
    View.ld_unit_zero (S := S1x512) hz2, View.ld_unit_zero (S := S512x256) hz2, View.ld_unit_zero (S := S64x256) hz2]
  rw [block_geto, whole_6 m c t, whole_7 m c t, whole_11 m c t, whole_10 m c t, bias_7 m c]
  funext y
  obtain ⟨p, o, rfl⟩ : ∃ (p : Fin 128) (o : Fin 256), y = ix2 p o := ⟨y 0, y 1, eq_ix2 y⟩
  show layer (iblk m c 2 t : Vec Ideal S128x64 .f32) (V m c main_arg10) (pooled (iblk m c 3 t : Vec Ideal S128x32x64 .f32) (V m c main_arg6) (biasOf (V m c main_arg7)) c32) (V m c main_arg11) (ix2 p o)
      = G (V m c main_arg2) (V m c main_arg3) (V m c main_arg6) (V m c main_arg7) (V m c main_arg11) (V m c main_arg10) (((cfg0.win 13).blk t).view.emb (ix2 p o))
  rw [emb_13 t p o]
  exact layer_rows (V m c main_arg2 : S16384x64.Idx → EReal) (iblk m c 2 t : Vec Ideal S128x64 .f32) (V m c main_arg10)
    (V m c main_arg3 : S16384x32x64.Idx → EReal) (iblk m c 3 t : Vec Ideal S128x32x64 .f32) (V m c main_arg6) (biasOf (V m c main_arg7)) c32 (V m c main_arg11)
    (rowOf t) (rows_2 m c t) (rows_3 m c t) p o

/-- An index of the array is in point t's block iff each coordinate is in the block's range on its axis. -/
theorem mem_blk_13 (t : Fin cfg0.N) (i : S16384x256.Idx) :
    i ∈ ((cfg0.win 13).blk t).view.set ↔ ∀ a : Fin 2, win0_13.index t a * S128x256.size a ≤ (i a).val ∧ (i a).val < win0_13.index t a * S128x256.size a + S128x256.size a := by
  show i ∈ ((View.whole main_v2_1).slice (win0_13.rect t)).set ↔ _
  rw [View.set_slice_whole, Rect.mem_set_unit]
  exact Iff.rfl

/-- Every index of the array is in the block of the point its row falls in: row r is in block r / 128. -/
theorem cover_13 (i : S16384x256.Idx) : ∃ t : Fin cfg0.N, (cfg0.win 13).flush t = true ∧ i ∈ ((cfg0.win 13).blk t).view.set := by
  have hi0 : (i 0).val < 16384 := (i 0).isLt
  have hi1 : (i 1).val < 256 := (i 1).isLt
  obtain ⟨t, ht⟩ : ∃ t : Fin cfg0.N, t.val = (i 0).val / 128 :=
    ⟨⟨(i 0).val / 128, lt_of_lt_of_eq (by omega : (i 0).val / 128 < 128) N_0.symm⟩, rfl⟩
  have e0 : win0_13.index t (0 : Fin 2) = t.val := (idx_rows_13 t).1
  have e1 : win0_13.index t (1 : Fin 2) = 0 := (idx_rows_13 t).2
  refine ⟨t, flush0_13 t, ?_⟩
  rw [mem_blk_13]
  intro a
  match a with
  | ⟨0, _⟩ => show win0_13.index t (0 : Fin 2) * 128 ≤ (i 0).val ∧ (i 0).val < win0_13.index t (0 : Fin 2) * 128 + 128; rw [e0]; omega
  | ⟨1, _⟩ => show win0_13.index t (1 : Fin 2) * 256 ≤ (i 1).val ∧ (i 1).val < win0_13.index t (1 : Fin 2) * 256 + 256; rw [e1]; omega

/-- So the array after the run is the specification's function of the argument arrays. -/
theorem final_geto (c : Dev nD) : (dats m 0 c).arrAt 13 cfg0.N
    = G (m ((c : Thread nD τ).loc main_arg2)) (m ((c : Thread nD τ).loc main_arg3)) (m ((c : Thread nD τ).loc main_arg6))
        (m ((c : Thread nD τ).loc main_arg7)) (m ((c : Thread nD τ).loc main_arg11)) (m ((c : Thread nD τ).loc main_arg10)) := by
  have h := (dats m 0 c).arrAt_eq_of_cover 13
    (G (V m c main_arg2) (V m c main_arg3) (V m c main_arg6) (V m c main_arg7) (V m c main_arg11) (V m c main_arg10))
    (fun t _ => flushed_geto m c t) cover_13
  rw [V_main_arg2, V_main_arg3, V_main_arg6, V_main_arg7, V_main_arg11, V_main_arg10] at h
  exact h

/-! ## The run -/

/-- Every weakly fair execution terminates with each result array at the specification's function of the
    arguments and the arguments unchanged. -/
theorem run : θ_run defs (onTc (τ := τ) (main (F := Ideal))) ⟨m, fun _ => 0, ρ⟩ fun r => ∀ c : Dev nD,
      r.2.mem ((c : Thread nD τ).loc main_v2_0)
        = G (m ((c : Thread nD τ).loc main_arg0)) (m ((c : Thread nD τ).loc main_arg1)) (m ((c : Thread nD τ).loc main_arg4))
            (m ((c : Thread nD τ).loc main_arg5)) (m ((c : Thread nD τ).loc main_arg8)) (m ((c : Thread nD τ).loc main_arg9))
      ∧ r.2.mem ((c : Thread nD τ).loc main_v2_1)
        = G (m ((c : Thread nD τ).loc main_arg2)) (m ((c : Thread nD τ).loc main_arg3)) (m ((c : Thread nD τ).loc main_arg6))
            (m ((c : Thread nD τ).loc main_arg7)) (m ((c : Thread nD τ).loc main_arg11)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final_feat m c), (h c).2.1.trans (final_geto m c), (h c).2.2⟩)
    (run_blocks m ρ)

end Cert.KernelIdeal.Blocks

end
-- ==== Proof.Reference.lean ====
/-
  The reference computes the specification's function.

  Each of the reference's two results is read at an entry (row b, column o) through its operations one at a
  time: the last rectifier, the sum of the two projections, each projection as a sum over its contracted axis,
  the quotient by 32, the sum over the 32 neighbours (from a zero initial value, which adds nothing), and a
  neighbour's rectified affine layer with the bias read at the column. The index maps of the operations are
  identified with (row, neighbour, column) triples coordinate by coordinate.
-/
import proofs.«170516_j63067299774722_1_alg».proof.Proof.Gen.ReferenceIdeal.Read
import proofs.«170516_j63067299774722_1_alg».proof.Proof.Spec

noncomputable section

open scoped BigOperators

namespace Cert.ReferenceIdeal.RefValue

open Cert.ReferenceIdeal Cert.ReferenceIdeal.Read Idealize.ShloMosaic Idealize.ShloMosaic.ValueIdx Cert.Dense Cert.NeighPool Cert.Spec

/-- A neighbour's rectified first layer in the reference, read at (row, neighbour, column). -/
theorem hidden_feat (x1 : (⟨S16384x32x128, .f32⟩ : BufTy).Contents (Elt Ideal)) (x4 : (⟨S128x512, .f32⟩ : BufTy).Contents (Elt Ideal))
    (x5 : (⟨S512, .f32⟩ : BufTy).Contents (Elt Ideal)) (b : Fin 16384) (k : Fin 32) (h : Fin 512) :
    val_main_v13 (F := Ideal) x1 x4 x5 (ix3 b k h) = hidden x1 x4 (biasOf x5) b k h := by
  rw [val_main_v13_apply, val_main_v12_apply, val_main_v9_apply, val_main_v11_apply, val_main_v10_apply, val_main_call1_v0_apply, val_main_call1_cst_apply]
  have el : ∀ d : Fin 128, lidx_main_v9 (ix3 b k h) d = ix3 b k d := fun d => funext fun a => Fin.ext (by
    match a with
    | ⟨0, _⟩ => rfl
    | ⟨1, _⟩ => rfl
    | ⟨2, _⟩ => rfl)
  have er : ∀ d : Fin 128, ridx_main_v9 (ix3 b k h) d = ix2 d h := fun d => funext fun a => Fin.ext (by
    match a with
    | ⟨0, _⟩ => rfl
    | ⟨1, _⟩ => rfl)
  have eb : idx_main_v10 (idx_main_v11 (ix3 b k h)) = ix1 h := funext fun a => Fin.ext (by
    match a with
    | ⟨0, _⟩ => rfl)
  simp only [el, er, eb]
  show max ((∑ d : Fin 128, x1 (ix3 b k d) * x4 (ix2 d h)) + x5 (ix1 h)) (Ideal.ofBits .f32 0x00000000#32) = _
  rw [Ideal.ofBits_zero_f32]
  rfl

/-- The mean over the neighbours in the reference, read at (row, column). -/
theorem pooled_feat (x1 : (⟨S16384x32x128, .f32⟩ : BufTy).Contents (Elt Ideal)) (x4 : (⟨S128x512, .f32⟩ : BufTy).Contents (Elt Ideal))
    (x5 : (⟨S512, .f32⟩ : BufTy).Contents (Elt Ideal)) (b : Fin 16384) (h : Fin 512) :
    val_main_v16 (F := Ideal) x1 x4 x5 (ix2 b h) = pooled x1 x4 (biasOf x5) c32 (ix2 b h) := by
  rw [val_main_v16_apply, val_main_v14_apply, val_main_v15_apply, val_main_cst_2_apply, val_main_cst_1_apply]
  have e : ∀ k : Fin 32, idx_main_v14 (ix2 b h) k = ix3 b k h := fun k => funext fun a => Fin.ext (by
    match a with
    | ⟨0, _⟩ => rfl
    | ⟨1, _⟩ => rfl
    | ⟨2, _⟩ => rfl)
  simp only [e, hidden_feat]
  show Ideal.div (Ideal.ofBits .f32 0x00000000#32 + ∑ k : Fin 32, hidden x1 x4 (biasOf x5) b k h) (Ideal.ofBits .f32 0x42000000#32) = _
  rw [Ideal.ofBits_zero_f32, zero_add]
  rfl

/-- The reference's result is the specification's function of its arguments. -/
theorem result_feat (x0 : (⟨S16384x128, .f32⟩ : BufTy).Contents (Elt Ideal)) (x1 : (⟨S16384x32x128, .f32⟩ : BufTy).Contents (Elt Ideal))
    (x4 : (⟨S128x512, .f32⟩ : BufTy).Contents (Elt Ideal)) (x5 : (⟨S512, .f32⟩ : BufTy).Contents (Elt Ideal))
    (x8 : (⟨S512x256, .f32⟩ : BufTy).Contents (Elt Ideal)) (x9 : (⟨S128x256, .f32⟩ : BufTy).Contents (Elt Ideal)) :
    val_main_v21 (F := Ideal) x0 x1 x4 x5 x8 x9 = G x0 x1 x4 x5 x8 x9 := by
  funext i
  obtain ⟨b, o, rfl⟩ : ∃ (b : Fin 16384) (o : Fin 256), i = ix2 b o := ⟨i 0, i 1, eq_ix2 i⟩
  rw [val_main_v21_apply, val_main_v20_apply, val_main_v19_apply, val_main_v17_apply, val_main_call2_v0_apply, val_main_call2_cst_apply]
  have sl : ∀ e : Fin 128, lidx_main_v19 (ix2 b o) e = ix2 b e := fun e => funext fun a => Fin.ext (by
    match a with
    | ⟨0, _⟩ => rfl
    | ⟨1, _⟩ => rfl)
  have sr : ∀ e : Fin 128, ridx_main_v19 (ix2 b o) e = ix2 e o := fun e => funext fun a => Fin.ext (by
    match a with
    | ⟨0, _⟩ => rfl
    | ⟨1, _⟩ => rfl)
  have nl : ∀ h : Fin 512, lidx_main_v17 (ix2 b o) h = ix2 b h := fun h => funext fun a => Fin.ext (by
    match a with
    | ⟨0, _⟩ => rfl
    | ⟨1, _⟩ => rfl)
  have nr : ∀ h : Fin 512, ridx_main_v17 (ix2 b o) h = ix2 h o := fun h => funext fun a => Fin.ext (by
    match a with
    | ⟨0, _⟩ => rfl
    | ⟨1, _⟩ => rfl)
  simp only [sl, sr, nl, nr, pooled_feat]
  show max ((∑ e : Fin 128, x0 (ix2 b e) * x9 (ix2 e o)) + ∑ h : Fin 512, pooled x1 x4 (biasOf x5) c32 (ix2 b h) * x8 (ix2 h o))
      (Ideal.ofBits .f32 0x00000000#32) = _
  rw [Ideal.ofBits_zero_f32]
  rfl

/-- A neighbour's rectified first layer in the reference, read at (row, neighbour, column). -/
theorem hidden_geto (x1 : (⟨S16384x32x64, .f32⟩ : BufTy).Contents (Elt Ideal)) (x4 : (⟨S64x512, .f32⟩ : BufTy).Contents (Elt Ideal))
    (x5 : (⟨S512, .f32⟩ : BufTy).Contents (Elt Ideal)) (b : Fin 16384) (k : Fin 32) (h : Fin 512) :
    val_main_v4 (F := Ideal) x1 x4 x5 (ix3 b k h) = hidden x1 x4 (biasOf x5) b k h := by
  rw [val_main_v4_apply, val_main_v3_apply, val_main_v0_apply, val_main_v2_apply, val_main_v1_apply, val_main_call0_v0_apply, val_main_call0_cst_apply]
  have el : ∀ d : Fin 64, lidx_main_v0 (ix3 b k h) d = ix3 b k d := fun d => funext fun a => Fin.ext (by
    match a with
    | ⟨0, _⟩ => rfl
    | ⟨1, _⟩ => rfl
    | ⟨2, _⟩ => rfl)
  have er : ∀ d : Fin 64, ridx_main_v0 (ix3 b k h) d = ix2 d h := fun d => funext fun a => Fin.ext (by
    match a with
    | ⟨0, _⟩ => rfl
    | ⟨1, _⟩ => rfl)
  have eb : idx_main_v1 (idx_main_v2 (ix3 b k h)) = ix1 h := funext fun a => Fin.ext (by
    match a with
    | ⟨0, _⟩ => rfl)
  simp only [el, er, eb]
  show max ((∑ d : Fin 64, x1 (ix3 b k d) * x4 (ix2 d h)) + x5 (ix1 h)) (Ideal.ofBits .f32 0x00000000#32) = _
  rw [Ideal.ofBits_zero_f32]
  rfl

/-- The mean over the neighbours in the reference, read at (row, column). -/
theorem pooled_geto (x1 : (⟨S16384x32x64, .f32⟩ : BufTy).Contents (Elt Ideal)) (x4 : (⟨S64x512, .f32⟩ : BufTy).Contents (Elt Ideal))
    (x5 : (⟨S512, .f32⟩ : BufTy).Contents (Elt Ideal)) (b : Fin 16384) (h : Fin 512) :
    val_main_v7 (F := Ideal) x1 x4 x5 (ix2 b h) = pooled x1 x4 (biasOf x5) c32 (ix2 b h) := by
  rw [val_main_v7_apply, val_main_v5_apply, val_main_v6_apply, val_main_cst_0_apply, val_main_cst_apply]
  have e : ∀ k : Fin 32, idx_main_v5 (ix2 b h) k = ix3 b k h := fun k => funext fun a => Fin.ext (by
    match a with
    | ⟨0, _⟩ => rfl
    | ⟨1, _⟩ => rfl
    | ⟨2, _⟩ => rfl)
  simp only [e, hidden_geto]
  show Ideal.div (Ideal.ofBits .f32 0x00000000#32 + ∑ k : Fin 32, hidden x1 x4 (biasOf x5) b k h) (Ideal.ofBits .f32 0x42000000#32) = _
  rw [Ideal.ofBits_zero_f32, zero_add]
  rfl

/-- The reference's result is the specification's function of its arguments. -/
theorem result_geto (x0 : (⟨S16384x64, .f32⟩ : BufTy).Contents (Elt Ideal)) (x1 : (⟨S16384x32x64, .f32⟩ : BufTy).Contents (Elt Ideal))
    (x4 : (⟨S64x512, .f32⟩ : BufTy).Contents (Elt Ideal)) (x5 : (⟨S512, .f32⟩ : BufTy).Contents (Elt Ideal))
    (x8 : (⟨S512x256, .f32⟩ : BufTy).Contents (Elt Ideal)) (x9 : (⟨S64x256, .f32⟩ : BufTy).Contents (Elt Ideal)) :
    val_main_v23 (F := Ideal) x0 x1 x4 x5 x9 x8 = G x0 x1 x4 x5 x8 x9 := by
  funext i
  obtain ⟨b, o, rfl⟩ : ∃ (b : Fin 16384) (o : Fin 256), i = ix2 b o := ⟨i 0, i 1, eq_ix2 i⟩
  rw [val_main_v23_apply, val_main_v22_apply, val_main_v18_apply, val_main_v8_apply, val_main_call3_v0_apply, val_main_call3_cst_apply]
  have sl : ∀ e : Fin 64, lidx_main_v18 (ix2 b o) e = ix2 b e := fun e => funext fun a => Fin.ext (by
    match a with
    | ⟨0, _⟩ => rfl
    | ⟨1, _⟩ => rfl)
  have sr : ∀ e : Fin 64, ridx_main_v18 (ix2 b o) e = ix2 e o := fun e => funext fun a => Fin.ext (by
    match a with
    | ⟨0, _⟩ => rfl
    | ⟨1, _⟩ => rfl)
  have nl : ∀ h : Fin 512, lidx_main_v8 (ix2 b o) h = ix2 b h := fun h => funext fun a => Fin.ext (by
    match a with
    | ⟨0, _⟩ => rfl
    | ⟨1, _⟩ => rfl)
  have nr : ∀ h : Fin 512, ridx_main_v8 (ix2 b o) h = ix2 h o := fun h => funext fun a => Fin.ext (by
    match a with
    | ⟨0, _⟩ => rfl
    | ⟨1, _⟩ => rfl)
  simp only [sl, sr, nl, nr, pooled_geto]
  show max ((∑ e : Fin 64, x0 (ix2 b e) * x9 (ix2 e o)) + ∑ h : Fin 512, pooled x1 x4 (biasOf x5) c32 (ix2 b h) * x8 (ix2 h o))
      (Ideal.ofBits .f32 0x00000000#32) = _
  rw [Ideal.ofBits_zero_f32]
  rfl

end Cert.ReferenceIdeal.RefValue

end
-- ==== Proof.lean ====
/-
  Two results of a neighbour-pooling layer, computed by a kernel block of rows by block of rows, against the
  same layer computed on whole arrays.

  For each of 16384 rows b and each column o both programs compute, on the extended reals,
    max( Σ_e S(b,e)·Ws(e,o) + Σ_h ( (Σ_k max(Σ_d X(b,k,d)·W(d,h) + β(h), 0)) / 32 )·Wn(h,o), 0 )
  once for the feature vectors (128 numbers per row and per neighbour) and once for the second family of vectors (64
  numbers): a rectified affine layer on each of a row's 32 neighbours, the mean over the neighbours, a
  projection, the row's own projection added, and the rectifier.

  The kernel works on 128 rows at a time. It flattens the [128, 32, ·] block of neighbours to 4096 rows, takes
  one matrix product into a zero accumulator, adds the bias row, rectifies, cuts the result back to
  [128, 32, 512] and sums over the neighbour axis; the reference contracts the last axis of the whole
  [16384, 32, ·] array directly and sums over the same axis from a zero initial value. Read at an entry these are
  the same finite sums in the same order of operations: a matrix product into zero and a general dot product
  with one contracted axis are both the sum over that axis, a change of float format is the identity, the
  division by the word of 32 is the same function on both sides, and neighbour k of row p is row 32·p + k of the
  flattened block. A layer computed on a block of rows with the whole weight matrices gives those rows of the
  layer on the whole arrays, and the 128 blocks tile each result array. No step distributes a product over a
  sum or cancels anything, so nothing is asked of the entries: the precondition is not used.

  The idealization rewrote no operation, so the idealized kernel is the kernel's own text read on the extended
  reals and that conjunct is trivial. The three programs' runs (termination, no fault, arguments unchanged) are the generated ones.
-/
import proofs.«170516_j63067299774722_1_alg».proof.Defs
import proofs.«170516_j63067299774722_1_alg».proof.Proof.Gen.Kernel
import proofs.«170516_j63067299774722_1_alg».proof.Proof.Gen.Kernel.Skeleton
import proofs.«170516_j63067299774722_1_alg».proof.Proof.Gen.Kernel.Launch
import proofs.«170516_j63067299774722_1_alg».proof.Proof.Gen.Kernel.Points
import proofs.«170516_j63067299774722_1_alg».proof.Proof.Gen.Kernel.Frame
import proofs.«170516_j63067299774722_1_alg».proof.Proof.Gen.KernelIdeal
import proofs.«170516_j63067299774722_1_alg».proof.Proof.Gen.KernelIdeal.Skeleton
import proofs.«170516_j63067299774722_1_alg».proof.Proof.Gen.KernelIdeal.Launch
import proofs.«170516_j63067299774722_1_alg».proof.Proof.Gen.KernelIdeal.Points
import proofs.«170516_j63067299774722_1_alg».proof.Proof.Gen.KernelIdeal.Frame
import proofs.«170516_j63067299774722_1_alg».proof.Proof.Gen.ReferenceIdeal
import proofs.«170516_j63067299774722_1_alg».proof.Proof.Gen.Pre_finite_inputs
import proofs.«170516_j63067299774722_1_alg».proof.Proof.Gen.KernelIdeal.Value
import proofs.«170516_j63067299774722_1_alg».proof.Proof.Gen.ReferenceIdeal.Run
import proofs.«170516_j63067299774722_1_alg».proof.Proof.Gen.ReferenceIdeal.Read
import proofs.«170516_j63067299774722_1_alg».proof.Proof.Blocks
import proofs.«170516_j63067299774722_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with each result array at the one function of the arguments: the kernel's blocks tile it,
    the reference's operations compose to it, and the arguments agree. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  refine ⟨(h c).1.trans ?_, (h c).2.1.trans ?_, (h c).2.2⟩
  · rw [a0, a1, a4, a5, a8, a9]
    exact (Cert.ReferenceIdeal.Read.val_main_v21_eq _ _ _ _ _ _).trans (Cert.ReferenceIdeal.RefValue.result_feat _ _ _ _ _ _)
  · rw [a2, a3, a6, a7, a10, a11]
    exact (Cert.ReferenceIdeal.Read.val_main_v23_eq _ _ _ _ _ _).trans (Cert.ReferenceIdeal.RefValue.result_geto _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
